-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S4096x4096, .f32⟩
  | .hbm, ⟨5, _⟩ => ⟨S4096x4096, .bf16⟩
  | .hbm, ⟨6, _⟩ => ⟨S8192x4096, .f32⟩
  | .hbm, ⟨7, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x2048x4096_S8192x4096 : S4x2048x4096.ShapeCasts S8192x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S8192x4096_S4x2048x4096 : S8192x4096.ShapeCasts S4x2048x4096
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Block.lean ====
/-
  One grid point's arithmetic read one entry at a time, over the extended reals.

  A point holds a 1024×2048 block a of the left matrix and a 1024×2048 block b of the right matrix (both with the
  contracted axis second), and an accumulator block acc. What it stores back is, at entry (p, q),
      acc(p, q) + Σ_{k < 2048} a(p, k) · b(q, k):
  the matrix unit started from zero is an exact sum at the ideal values, and the sum over the one contracted axis is
  re-indexed by that axis's coordinate. The block the first point of a pair stores before accumulating is zero
  everywhere.
-/
import proofs.«121976_j10350871183908_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Block

open Idealize.ShloMosaic Idealize.ShloMosaic.ValueIdx Cert.KernelIdeal Cert.KernelIdeal.Gen

/-- The block product's dimension numbers: axis 1 of each operand contracted, rows of a then rows of b kept. -/
abbrev dotBlk : DotDims S1024x2048 S1024x2048 S1024x1024 := dot_S1024x2048_S1024x2048_S1024x1024_1_1_0_0_n_n

/-- The left operand is read in the output's row … -/
theorem lhs_row (j : S1024x1024.Idx) (k : dotBlk.contr.Idx) : (dotBlk.lhsIdx j k 0).val = (j 0).val := by
  unfold DotDims.lhsIdx
  rw [dif_neg (show ¬(0 : Fin S1024x2048.rank) ∈ dotBlk.lhsBatch by decide),
    dif_pos (show (0 : Fin S1024x2048.rank) ∈ dotBlk.lhsNonContracting by decide)]
  rfl

/-- … at the contraction coordinate. -/
theorem lhs_contr (j : S1024x1024.Idx) (k : dotBlk.contr.Idx) : (dotBlk.lhsIdx j k 1).val = (k ⟨0, by decide⟩).val :=
  dotBlk.lhsIdx_val_of_single rfl j k

/-- The right operand is read in the row the output's column names … -/
theorem rhs_row (j : S1024x1024.Idx) (k : dotBlk.contr.Idx) : (dotBlk.rhsIdx j k 0).val = (j 1).val := by
  unfold DotDims.rhsIdx
  rw [dif_neg (show ¬(0 : Fin S1024x2048.rank) ∈ dotBlk.rhsBatch by decide),
    dif_pos (show (0 : Fin S1024x2048.rank) ∈ dotBlk.rhsNonContracting by decide)]
  rfl

/-- … at the contraction coordinate. -/
theorem rhs_contr (j : S1024x1024.Idx) (k : dotBlk.contr.Idx) : (dotBlk.rhsIdx j k 1).val = (k ⟨0, by decide⟩).val :=
  dotBlk.rhsIdx_val_of_single rfl j k

/-- The block product's sum over contraction positions is the sum over k of a(p, k) · b(q, k). -/
theorem dot_sum (a b : S1024x2048.Idx → EReal) (p q : Fin 1024) :
    ∑ k : dotBlk.contr.Idx, a (dotBlk.lhsIdx (ix2 p q) k) * b (dotBlk.rhsIdx (ix2 p q) k)
      = ∑ k : Fin 2048, a (ix2 p k) * b (ix2 q k) := by
  rw [← Equiv.sum_comp (contrEquiv1 dotBlk 2048 rfl rfl).symm]
  refine Finset.sum_congr rfl fun k _ => ?_
  have hk := contrEquiv1_symm_val dotBlk 2048 rfl rfl k
  have el : dotBlk.lhsIdx (ix2 p q) ((contrEquiv1 dotBlk 2048 rfl rfl).symm k) = ix2 p k := funext fun d => Fin.ext (by
    match d with
    | ⟨0, _⟩ => exact lhs_row _ _
    | ⟨1, _⟩ => exact (lhs_contr _ _).trans hk)
  have er : dotBlk.rhsIdx (ix2 p q) ((contrEquiv1 dotBlk 2048 rfl rfl).symm k) = ix2 q k := funext fun d => Fin.ext (by
    match d with
    | ⟨0, _⟩ => exact rhs_row _ _
    | ⟨1, _⟩ => exact (rhs_contr _ _).trans hk)
  rw [el, er]

/-- What a point stores back, at entry (p, q): the accumulator's entry plus the block product's. -/
theorem acc_step_at (acc : Vec Ideal S1024x1024 .f32) (a b : Vec Ideal S1024x2048 .bf16) (p q : Fin 1024) :
    k0_pay2 (F := Ideal) acc a b (ix2 p q) = acc (ix2 p q) + ∑ k : Fin 2048, a (ix2 p k) * b (ix2 q k) := by
  unfold k0_pay2
  simp only [shapeCast_self]
  rw [addf_apply]
  exact congrArg (acc (ix2 p q) + ·) ((Ideal.matmul_constant_zero_apply (φ₁ := .bf16) (φ₂ := .bf16) dotBlk none a b (ix2 p q)).trans (dot_sum a b p q))

/-- The reset block is zero at every entry. -/
theorem reset_at (j : S1024x1024.Idx) : k0_pay1 (F := Ideal) j = 0 := by
  unfold k0_pay1
  simp only [shapeCast_self]
  exact Ideal.ofBits_zero_f32

/-- The two points of a pair, at entry (p, q): zero, plus the first block product, plus the second. -/
theorem pair_at_entry (a' b' a b : Vec Ideal S1024x2048 .bf16) (p q : Fin 1024) :
    k0_pay2 (F := Ideal) (k0_pay2 (F := Ideal) (k0_pay1 (F := Ideal)) a' b') a b (ix2 p q)
      = (0 + ∑ k : Fin 2048, a' (ix2 p k) * b' (ix2 q k)) + ∑ k : Fin 2048, a (ix2 p k) * b (ix2 q k) := by
  rw [acc_step_at, acc_step_at, reset_at]

/-- The same at any index of the block, through its two coordinates. -/
theorem pair_at (a' b' a b : Vec Ideal S1024x2048 .bf16) (y : S1024x1024.Idx) :
    k0_pay2 (F := Ideal) (k0_pay2 (F := Ideal) (k0_pay1 (F := Ideal)) a' b') a b y
      = (0 + ∑ k : Fin 2048, a' (ix2 (y 0 : Fin 1024) k) * b' (ix2 (y 1 : Fin 1024) k))
        + ∑ k : Fin 2048, a (ix2 (y 0 : Fin 1024) k) * b (ix2 (y 1 : Fin 1024) k) := by
  exact (congrArg (k0_pay2 (F := Ideal) (k0_pay2 (F := Ideal) (k0_pay1 (F := Ideal)) a' b') a b) (eq_ix2 y)).trans
    (pair_at_entry a' b' a b (y 0) (y 1))

end Cert.KernelIdeal.Block

end
-- ==== Proof.Pieces.lean ====
/-
  What one grid point leaves behind, as values of the blocks it loaded.

  At the first point of a pair (contraction block 0) the body zeroes the accumulator, reads it back, and stores
  zero + a·bᵀ into it; the output block is not touched. At the second point (contraction block 1) it stores
  acc + a·bᵀ into the accumulator, reads that back, and copies it into the output block. In both cases the last store
  into a buffer covers it, so the buffer ends holding that store's value, and a load of a whole buffer reads its
  contents.
-/
import proofs.«121976_j10350871183908_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem zero_off : (![0, 0] : Fin 2 → Nat) = fun _ => 0 := funext fun a => by fin_cases a <;> rfl

/-- First point of a pair: the accumulator ends at the step applied to the zero block. -/
theorem acc_first (c : Dev nD) (i : grid0.Coords) (arg3 : Memref sig .tc .vmem S1024x2048 .bf16) (harg3 : arg3.IsWhole)
    (arg4 : Memref sig .tc .vmem S1024x2048 .bf16) (harg4 : arg4.IsWhole) (arg5 : Memref sig .tc .vmem S1024x1024 .f32) (harg5 : arg5.IsWhole)
    (arg6 : Memref sig .tc .vmem S1024x1024 .f32) (harg6 : arg6.IsWhole) (hc0 : cond0_0 i) (hc1 : ¬cond0_1 i)
    (x0 x1 : Vec F S1024x2048 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) zero_off]
  simp only [View.readCov_unit_zero (S := S1024x1024) _ zero_off, View.readAt_eq_ld, harg3.read_unread, harg4.read_unread,
    View.ld_unit_zero (S := S1024x2048) zero_off]

/-- Second point of a pair: the accumulator ends at the step applied to what the first point left. -/
theorem acc_second (c : Dev nD) (i : grid0.Coords) (arg3 : Memref sig .tc .vmem S1024x2048 .bf16) (harg3 : arg3.IsWhole)
    (arg4 : Memref sig .tc .vmem S1024x2048 .bf16) (harg4 : arg4.IsWhole) (arg5 : Memref sig .tc .vmem S1024x1024 .f32) (harg5 : arg5.IsWhole)
    (arg6 : Memref sig .tc .vmem S1024x1024 .f32) (harg6 : arg6.IsWhole) (hc0 : ¬cond0_0 i) (hc1 : cond0_1 i)
    (x0 x1 : Vec F S1024x2048 .bf16) (xs0 : Vec F S1024x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero zero_off]
  simp only [View.readAt_eq_ld, harg3.read_unread, harg4.read_unread, harg6.read_unread,
    View.ld_unit_zero (S := S1024x2048) zero_off, View.ld_unit_zero (S := S1024x1024) zero_off]

/-- Second point of a pair: the output block ends at the same value, copied from the accumulator. -/
theorem out_second (c : Dev nD) (i : grid0.Coords) (arg3 : Memref sig .tc .vmem S1024x2048 .bf16) (harg3 : arg3.IsWhole)
    (arg4 : Memref sig .tc .vmem S1024x2048 .bf16) (harg4 : arg4.IsWhole) (arg5 : Memref sig .tc .vmem S1024x1024 .f32) (harg5 : arg5.IsWhole)
    (arg6 : Memref sig .tc .vmem S1024x1024 .f32) (harg6 : arg6.IsWhole) (hc0 : ¬cond0_0 i) (hc1 : cond0_1 i)
    (x0 x1 : Vec F S1024x2048 .bf16) (xs0 : Vec F S1024x1024 .f32) :
    out0_B_2 c i arg3 harg3 arg4 harg4 arg5 harg5 arg6 harg6 hc0 hc1 x0 x1 xs0 = k0_pay2 xs0 x0 x1 := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero zero_off]
  simp only [View.readCov_unit_zero (S := S1024x1024) _ zero_off, View.readAt_eq_ld, harg3.read_unread, harg4.read_unread,
    harg6.read_unread, View.ld_unit_zero (S := S1024x2048) zero_off, View.ld_unit_zero (S := S1024x1024) zero_off]

end Cert.KernelIdeal.Pieces

end
-- ==== Proof.Spec.lean ====
/-
  The function both programs compute, entry by entry, over the extended reals.

  With x the 8192×4096 matrix of activations (the 4×2048 leading axes flattened row-major) and w the 4096×4096 matrix
  of weight signs, the result at row r and column o is
      Σ_{k < 4096} x(r, k) · w(o, k).
  The tiled program reaches it in two halves of the contracted axis, from a zero accumulator:
      (0 + Σ_{k < 2048} x(r, k) · w(o, k)) + Σ_{k < 2048} x(r, 2048 + k) · w(o, 2048 + k).
  The two agree because addition of extended reals is associative and commutative with unit 0: a sum over 4096
  positions is the sum over the first 2048 plus the sum over the last 2048. No entry needs to be finite.
-/
import Idealize.ShloMosaic.PureOps.Ideal
import Idealize.ShloMosaic.Lib.ValueIdx

noncomputable section

namespace Cert.Spec

open Idealize.ShloMosaic Idealize.ShloMosaic.ValueIdx

/-- Position k of the first half of the contracted axis. -/
abbrev lo (k : Fin 2048) : Fin 4096 := ⟨k.val, by have := k.isLt; omega⟩
/-- Position k of the second half of the contracted axis. -/
abbrev hi (k : Fin 2048) : Fin 4096 := ⟨2048 + k.val, by have := k.isLt; omega⟩

/-- A sum over the 4096 positions is the sum over the first half plus the sum over the second half. -/
theorem sum_halves (f : Fin 4096 → EReal) :
    ∑ k : Fin 4096, f k = (∑ k : Fin 2048, f (lo k)) + ∑ k : Fin 2048, f (hi k) :=
  Fin.sum_univ_add (a := 2048) (b := 2048) f

/-- The product as the tiled program groups it: zero, plus the first half, plus the second half. -/
def prod (x : (⟨2, ![8192, 4096]⟩ : Shape).Idx → EReal) (w : (⟨2, ![4096, 4096]⟩ : Shape).Idx → EReal) :
    (⟨2, ![8192, 4096]⟩ : Shape).Idx → EReal := fun j =>
  (0 + ∑ k : Fin 2048, x (ix2 (j 0 : Fin 8192) (lo k)) * w (ix2 (j 1 : Fin 4096) (lo k)))
    + ∑ k : Fin 2048, x (ix2 (j 0 : Fin 8192) (hi k)) * w (ix2 (j 1 : Fin 4096) (hi k))

/-- It is the plain product: one sum over the whole contracted axis. -/
theorem prod_apply (x : (⟨2, ![8192, 4096]⟩ : Shape).Idx → EReal) (w : (⟨2, ![4096, 4096]⟩ : Shape).Idx → EReal)
    (r : Fin 8192) (o : Fin 4096) : prod x w (ix2 r o) = ∑ k : Fin 4096, x (ix2 r k) * w (ix2 o k) := by
  show (0 + ∑ k : Fin 2048, x (ix2 r (lo k)) * w (ix2 o (lo k))) + ∑ k : Fin 2048, x (ix2 r (hi k)) * w (ix2 o (hi k)) = _
  rw [zero_add]
  exact (sum_halves fun k => x (ix2 r k) * w (ix2 o k)).symm

end Cert.Spec

end
-- ==== Proof.Accum.lean ====
/-
  The output array after the region, as one function of the two staged matrices.

  The grid is 8 × 4 × 2: point t has row block t / 8, column block (t / 2) mod 4 and contraction block t mod 2, so the
  points come in pairs (t - 1, t) with t odd, both on the same output block. The even point leaves
  zero + (its blocks' product) in the accumulator; the odd point adds its own blocks' product and copies the sum into
  the output block, which is written back at odd points only. Reading each staged block where the output block's
  rows and columns say, the block written back at an odd point is the block of
      (0 + Σ_{k < 2048} x(r, k) · w(o, k)) + Σ_{k < 2048} x(r, 2048 + k) · w(o, 2048 + k),
  and the 32 output blocks tile the 8192 × 4096 array: row r and column o lie in the block of the odd point
  (r / 1024) · 8 + (o / 1024) · 2 + 1.
-/
import proofs.«121976_j10350871183908_2_alg».proof.Proof.Gen.KernelIdeal.Frame
import proofs.«121976_j10350871183908_2_alg».proof.Proof.Block
import proofs.«121976_j10350871183908_2_alg».proof.Proof.Pieces
import proofs.«121976_j10350871183908_2_alg».proof.Proof.Spec
import Idealize.ShloMosaic.Lib.Pipeline.Value

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ)

/-- The point before t (the first of t's pair, when t is odd). -/
abbrev before (t : Fin cfg0.N) : Fin cfg0.N := ⟨t.val - 1, Nat.lt_of_le_of_lt (Nat.sub_le _ _) t.isLt⟩

/-- The left matrix as the region finds it (the activations, flattened and staged), -/
abbrev X (c : Dev nD) : S8192x4096.Idx → EReal := V m c main_v1
/-- and the right matrix (the weight signs, staged). -/
abbrev W (c : Dev nD) : S4096x4096.Idx → EReal := V m c main_v3

/-- The printed index maps in closed form, decided over the 64 grid points: row block t / 8, column block
    (t / 2) mod 4, contraction block t mod 2. -/
theorem idx_closed : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = t.val / 8 ∧ win0_2.index t (1 : Fin 2) = t.val / 2 % 4 :=
  (by decide +kernel : ∀ t : Fin grid0.N, _)

/-- What the accumulator holds after an even point: the step applied to the zero block and the point's blocks. -/
theorem acc_even (c : Dev nD) (u : Fin cfg0.N) (h0 : u.val % 2 = 0) :
    (outsAt0 m c u.val u.isLt).2 = k0_pay2 (F := Ideal) (k0_pay1 (F := Ideal)) (iblk m c 0 u) (iblk m c 1 u) := by
  have h1 : ¬u.val % 2 = 1 := by omega
  rw [outsAt0_A m c u h0 h1]
  dsimp only
  exact Pieces.acc_first c (grid0.coords u) (ms0_0 u) (hs0_0 u) (ms0_1 u) (hs0_1 u) (ms0_2 u) (hs0_2 u) scM0_0
    (Memref.isWhole_whole _) _ _ (iblk m c 0 u) (iblk m c 1 u)

/-- What the output's staging buffer holds after an odd point: the step applied twice from the zero block, first to
    the blocks of the point before, then to this point's. -/
theorem out_pair (c : Dev nD) (t : Fin cfg0.N) (h1 : t.val % 2 = 1) :
    (outsAt0 m c t.val t.isLt).1
      = k0_pay2 (F := Ideal) (k0_pay2 (F := Ideal) (k0_pay1 (F := Ideal)) (iblk m c 0 (before t)) (iblk m c 1 (before t)))
          (iblk m c 0 t) (iblk m c 1 t) := by
  have h0 : ¬t.val % 2 = 0 := by omega
  have hb0 : (before t).val % 2 = 0 := by show (t.val - 1) % 2 = 0; omega
  rw [outsAt0_B m c t h0 h1]
  dsimp only
  refine (Pieces.out_second c (grid0.coords t) (ms0_0 t) (hs0_0 t) (ms0_1 t) (hs0_1 t) (ms0_2 t) (hs0_2 t) scM0_0
    (Memref.isWhole_whole _) _ _ (iblk m c 0 t) (iblk m c 1 t) _).trans ?_
  exact congrArg (fun z => k0_pay2 (F := Ideal) z (iblk m c 0 t) (iblk m c 1 t)) (acc_even m c (before t) hb0)

/-- A staged block of the left matrix read at (p, k) is the matrix at row (t / 8) · 1024 + p and contraction position
    (t mod 2) · 2048 + k. -/
theorem left_at (c : Dev nD) (t : Fin cfg0.N) (p : Fin 1024) (k : Fin 2048) (r : Fin 8192) (kk : Fin 4096)
    (hr : r.val = t.val / 8 * 1024 + p.val) (hk : kk.val = t.val % 2 * 2048 + k.val) :
    iblk m c 0 t (ix2 p k) = X m c (ix2 r kk) := by
  obtain ⟨e0, e1, -, -, -, -⟩ := idx_closed t
  unfold iblk
  rw [View.read_apply]
  show V m c main_v1 (((cfg0.win 0).blk t).view.emb (ix2 p k)) = V m c main_v1 (ix2 r kk)
  refine congrArg (V m c main_v1) (funext fun a => Fin.ext ?_)
  match a with
  | ⟨0, _⟩ => show win0_0.index t (0 : Fin 2) * 1024 + 1 * p.val = r.val; rw [e0, hr]; omega
  | ⟨1, _⟩ => show win0_0.index t (1 : Fin 2) * 2048 + 1 * k.val = kk.val; rw [e1, hk]; omega

/-- A staged block of the right matrix read at (q, k) is the matrix at row ((t / 2) mod 4) · 1024 + q and contraction
    position (t mod 2) · 2048 + k. -/
theorem right_at (c : Dev nD) (t : Fin cfg0.N) (q : Fin 1024) (k : Fin 2048) (o : Fin 4096) (kk : Fin 4096)
    (ho : o.val = t.val / 2 % 4 * 1024 + q.val) (hk : kk.val = t.val % 2 * 2048 + k.val) :
    iblk m c 1 t (ix2 q k) = W m c (ix2 o kk) := by
  obtain ⟨-, -, e2, e3, -, -⟩ := idx_closed t
  unfold iblk
  rw [View.read_apply]
  show V m c main_v3 (((cfg0.win 1).blk t).view.emb (ix2 q k)) = V m c main_v3 (ix2 o kk)
  refine congrArg (V m c main_v3) (funext fun a => Fin.ext ?_)
  match a with
  | ⟨0, _⟩ => show win0_1.index t (0 : Fin 2) * 1024 + 1 * q.val = o.val; rw [e2, ho]; omega
  | ⟨1, _⟩ => show win0_1.index t (1 : Fin 2) * 2048 + 1 * k.val = kk.val; rw [e3, hk]; omega

/-- What an odd point writes back is its block of the two-halves product of the staged matrices. -/
theorem flushed_eq (c : Dev nD) (t : Fin cfg0.N) (hf : (cfg0.win 2).flush t = true) :
    (dats m 0 c).flushed 2 t = ((cfg0.win 2).blk t).view.read (Elt Ideal) (prod (X m c) (W m c)) := by
  have h1 : t.val % 2 = 1 := (flush0_2 t).mp hf
  obtain ⟨-, -, -, -, e4, e5⟩ := idx_closed t
  show (cfg0.win 2).cut (grid0.coords t) ((dats m 0 c).after 2 t) = _
  rw [after0_2, out_pair m c t h1]
  funext j
  have hj0 : (j 0).val < 1024 := (j 0).isLt
  have hj1 : (j 1).val < 1024 := (j 1).isLt
  rw [View.read_apply]
  refine (Block.pair_at (iblk m c 0 (before t)) (iblk m c 1 (before t)) (iblk m c 0 t) (iblk m c 1 t)
    ((cfg0.win 2).xinj (grid0.coords t) j)).trans ?_
  unfold prod
  refine congrArg₂ (· + ·) (congrArg (0 + ·) (Finset.sum_congr rfl fun k _ => ?_)) (Finset.sum_congr rfl fun k _ => ?_)
  · refine congrArg₂ (· * ·) (left_at m c (before t) _ k _ (lo k) ?_ ?_) (right_at m c (before t) _ k _ (lo k) ?_ ?_)
    · show win0_2.index t (0 : Fin 2) * 1024 + 1 * (j 0).val = (t.val - 1) / 8 * 1024 + (j 0).val; rw [e4]; omega
    · show k.val = (t.val - 1) % 2 * 2048 + k.val; omega
    · show win0_2.index t (1 : Fin 2) * 1024 + 1 * (j 1).val = (t.val - 1) / 2 % 4 * 1024 + (j 1).val; rw [e5]; omega
    · show k.val = (t.val - 1) % 2 * 2048 + k.val; omega
  · refine congrArg₂ (· * ·) (left_at m c t _ k _ (hi k) ?_ ?_) (right_at m c t _ k _ (hi k) ?_ ?_)
    · show win0_2.index t (0 : Fin 2) * 1024 + 1 * (j 0).val = t.val / 8 * 1024 + (j 0).val; rw [e4]; omega
    · show 2048 + k.val = t.val % 2 * 2048 + k.val; omega
    · show win0_2.index t (1 : Fin 2) * 1024 + 1 * (j 1).val = t.val / 2 % 4 * 1024 + (j 1).val; rw [e5]; omega
    · show 2048 + k.val = t.val % 2 * 2048 + k.val; omega

/-- An index of the output array is in point t's block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v4).slice (win0_2.rect t)).set ↔ _
  rw [View.set_slice_whole, Rect.mem_set_unit]
  exact Iff.rfl

/-- Every entry of the output array is in the block some odd point writes back. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 64 := N_0
  obtain ⟨t, ht⟩ : ∃ t : Fin cfg0.N, t.val = (i 0).val / 1024 * 8 + (i 1).val / 1024 * 2 + 1 :=
    ⟨⟨(i 0).val / 1024 * 8 + (i 1).val / 1024 * 2 + 1, by rw [hN]; omega⟩, rfl⟩
  obtain ⟨-, -, -, -, e4, e5⟩ := idx_closed t
  refine ⟨t, (flush0_2 t).mpr (by rw [ht]; omega), ?_⟩
  rw [mem_blk]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 1024 ≤ (i 1).val ∧ (i 1).val < win0_2.index t (1 : Fin 2) * 1024 + 1024
    rw [e5, ht]; omega

/-- So the output array ends holding the two-halves product of the staged matrices. -/
theorem final (c : Dev nD) : (dats m 0 c).arrAt 2 cfg0.N = prod (X m c) (W m c) :=
  (dats m 0 c).arrAt_eq_of_cover 2 (prod (X m c) (W m c)) (flushed_eq m c) (cover)

end Cert.KernelIdeal.Accum

end
-- ==== Proof.Result.lean ====
/-
  The tiled program's result, from its arguments.

  Before the region the host flattens the activations' two leading axes (entry (b, s, k) goes to row b · 2048 + s) and
  takes the weights' signs; the changes of float format on the way are the identity on exact values. After the region
  it unflattens the output array the same way. So the result at (b, s, o) is the output array at row b · 2048 + s and
  column o, which is the plain product there:
      Σ_{k < 4096} input(b, s, k) · sign(weight(o, k)).
-/
import proofs.«121976_j10350871183908_2_alg».proof.Proof.Accum
import Idealize.ShloMosaic.Lib.StableHlo.Run

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accum Cert.Spec

variable (m : (ℓ : Loc nD τ sig) → Buf (Elt Ideal) ℓ) (ρ : Dev nD → PrngReg)

/-- The activations at launch, -/
abbrev input (c : Dev nD) : FVec Ideal S4x2048x4096 .f32 := m ((c : Thread nD τ).loc main_arg0)
/-- and the weights. -/
abbrev weight (c : Dev nD) : FVec Ideal S4096x4096 .f32 := m ((c : Thread nD τ).loc main_arg1)

/-- The left matrix the region finds: the activations flattened. -/
theorem X_eq (c : Dev nD) :
    X m c = truncf (F := Ideal) (φ := .f32) .bf16 (shapeCast S8192x4096 (input m c) shapeCasts_S4x2048x4096_S8192x4096) bitsLt_bf16_f32 := by
  show StableHlo.after hostOps0 (fun b => m (c, b)) (Proc.devRef .tc main_v1) = _
  after_results <;> rfl

/-- The right matrix the region finds: the weights' signs. -/
theorem W_eq (c : Dev nD) :
    W m c = truncf (F := Ideal) (φ := .f32) .bf16 (Host.sign (F := Ideal) (φ := .f32) (weight m c)) bitsLt_bf16_f32 := by
  show StableHlo.after hostOps0 (fun b => m (c, b)) (Proc.devRef .tc main_v3) = _
  after_results <;> rfl

/-- Row b · 2048 + s of the flattened activations is row (b, s). -/
theorem X_at (c : Dev nD) (b : Fin 4) (s : Fin 2048) (k : Fin 4096) (r : Fin 8192) (hr : r.val = b.val * 2048 + s.val) :
    X m c (ix2 r k) = input m c (ix3 b s k) := by
  rw [X_eq]
  show shapeCast S8192x4096 (input m c) shapeCasts_S4x2048x4096_S8192x4096 (ix2 r k) = _
  refine shapeCast_apply _ _ (ix2 r k) (ix3 b s k) ?_
  rw [Shape.rowMajor_val_three, Shape.rowMajor_val_two]
  show (b.val * 2048 + s.val) * 4096 + k.val = r.val * 4096 + k.val
  rw [hr]

/-- The staged weight signs at (o, k). -/
theorem W_at (c : Dev nD) (o k : Fin 4096) :
    W m c (ix2 o k) = FloatOps.hostUnary (F := Ideal) (φ := .f32) .sign (weight m c (ix2 o k)) := by
  rw [W_eq]; rfl

/-- What the result buffer ends holding: the output array unflattened. -/
def result (c : Dev nD) : S4x2048x4096.Idx → EReal :=
  shapeCast S4x2048x4096 (prod (X m c) (W m c)) shapeCasts_S8192x4096_S4x2048x4096

/-- The host line after the region writes it. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  unfold result
  refine congrArg (fun x => shapeCast S4x2048x4096 x shapeCasts_S8192x4096_S4x2048x4096) ?_
  exact (Pipeline.withArrays_arr spec0 launch0.win.arr_inj c _ _ 2).trans (final m c)

/-- The run, read: the result buffer at that value, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The result at entry (b, s, o): the plain product of the activations with the weight signs. -/
theorem result_at (c : Dev nD) (b : Fin 4) (s : Fin 2048) (o : Fin 4096) :
    result m c (ix3 b s o)
      = ∑ k : Fin 4096, input m c (ix3 b s k) * FloatOps.hostUnary (F := Ideal) (φ := .f32) .sign (weight m c (ix2 o k)) := by
  have hr : b.val * 2048 + s.val < 8192 := by have := b.isLt; have := s.isLt; omega
  unfold result
  rw [shapeCast_apply _ _ (ix3 b s o) (ix2 (⟨b.val * 2048 + s.val, hr⟩ : Fin 8192) o) (by
    rw [Shape.rowMajor_val_two, Shape.rowMajor_val_three]; rfl)]
  rw [prod_apply]
  refine Finset.sum_congr rfl fun k _ => ?_
  rw [X_at m c b s k _ rfl, W_at]

end Cert.KernelIdeal.Result

end
-- ==== Proof.RefSide.lean ====
/-
  The reference at an entry: the general dot product of the activations with the weight signs, contracting the last
  axis of each, is at (b, s, o) the sum over k of input(b, s, k) · sign(weight(o, k)).
-/
import proofs.«121976_j10350871183908_2_alg».proof.Proof.Gen.ReferenceIdeal.Read
import Idealize.ShloMosaic.Lib.ValueIdx

noncomputable section

namespace Cert.ReferenceIdeal.RefSide

open Idealize.ShloMosaic Idealize.ShloMosaic.ValueIdx Cert.ReferenceIdeal Cert.ReferenceIdeal.Gen

/-- The reference's result at entry (b, s, o). -/
theorem ref_at (x0 : FVec Ideal S4x2048x4096 .f32) (x1 : FVec Ideal S4096x4096 .f32)
    (b : Fin 4) (s : Fin 2048) (o : Fin 4096) :
    Host.dotGeneral (F := Ideal) (φ₁ := .f32) (φ₂ := .f32) dot_S4x2048x4096_S4096x4096_S4x2048x4096_2_1_01_0_n_n none x0 (Host.sign (F := Ideal) (φ := .f32) x1) (ix3 b s o)
      = ∑ k : Fin 4096, x0 (ix3 b s k) * FloatOps.hostUnary (F := Ideal) (φ := .f32) .sign (x1 (ix2 o k)) := by
  rw [Read.val_main_v1_eq, Read.val_main_v1_apply]
  refine Finset.sum_congr rfl fun k _ => ?_
  rw [Read.val_main_v0_apply]
  have el : Read.lidx_main_v1 (ix3 b s o) k = ix3 b s k := funext fun a => Fin.ext (by
    match a with
    | ⟨0, _⟩ => rfl
    | ⟨1, _⟩ => rfl
    | ⟨2, _⟩ => rfl)
  have er : Read.ridx_main_v1 (ix3 b s o) k = ix2 o k := funext fun a => Fin.ext (by
    match a with
    | ⟨0, _⟩ => rfl
    | ⟨1, _⟩ => rfl)
  rw [el, er]

end Cert.ReferenceIdeal.RefSide

end
-- ==== Proof.lean ====
/-
  A sign-ternarized linear layer, tiled, against its one-line reference.

  Both programs compute, over the extended reals,
      out(b, s, o) = Σ_{k < 4096} input(b, s, k) · sign(weight(o, k)).
  The reference takes the weights' signs and contracts the last axis of each operand in one general dot product. The
  tiled program flattens (b, s) to the row b · 2048 + s, stages both matrices (the changes of float format are the
  identity on exact values), and on an 8 × 4 × 2 grid builds each 1024 × 1024 output block from a zero accumulator as the
  block product over the first half of the contracted axis plus the block product over the second half; it then
  unflattens the rows. The two agree because a sum over 4096 positions is the sum of its two halves and zero is the unit
  of addition: laws of the extended reals that hold at infinite entries too, so the inputs' finiteness is never used.

  The modules: Spec (the function, and the sum in two halves), Block (one grid point's arithmetic at an entry), Pieces
  (what each kind of point leaves in the accumulator and the output block), Accum (the output array after the region),
  Result (the host lines around the region and the result at an entry), RefSide (the reference at an entry).
-/
import proofs.«121976_j10350871183908_2_alg».proof.Defs
import proofs.«121976_j10350871183908_2_alg».proof.Proof.Gen.Kernel
import proofs.«121976_j10350871183908_2_alg».proof.Proof.Gen.Kernel.Skeleton
import proofs.«121976_j10350871183908_2_alg».proof.Proof.Gen.Kernel.Launch
import proofs.«121976_j10350871183908_2_alg».proof.Proof.Gen.Kernel.Points
import proofs.«121976_j10350871183908_2_alg».proof.Proof.Gen.Kernel.Frame
import proofs.«121976_j10350871183908_2_alg».proof.Proof.Gen.KernelIdeal
import proofs.«121976_j10350871183908_2_alg».proof.Proof.Gen.KernelIdeal.Skeleton
import proofs.«121976_j10350871183908_2_alg».proof.Proof.Gen.KernelIdeal.Launch
import proofs.«121976_j10350871183908_2_alg».proof.Proof.Gen.KernelIdeal.Points
import proofs.«121976_j10350871183908_2_alg».proof.Proof.Gen.KernelIdeal.Frame
import proofs.«121976_j10350871183908_2_alg».proof.Proof.Gen.ReferenceIdeal
import proofs.«121976_j10350871183908_2_alg».proof.Proof.Gen.ReferenceIdeal.Run
import proofs.«121976_j10350871183908_2_alg».proof.Proof.Gen.ReferenceIdeal.Read
import proofs.«121976_j10350871183908_2_alg».proof.Proof.Gen.Pre_finite_inputs
import proofs.«121976_j10350871183908_2_alg».proof.Proof.Result
import proofs.«121976_j10350871183908_2_alg».proof.Proof.RefSide
import Idealize.ShloMosaic.Adequacy
import Idealize.ShloMosaic.Init

noncomputable section

namespace Cert.Proof

open Idealize.ShloMosaic Idealize.SL.Sem Idealize.ShloMosaic.ValueIdx

/-- The tiled program runs and leaves its arguments as they were. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, both programs end with the same result: at every entry (b, s, o) each is the sum over k
    of input(b, s, k) · sign(weight(o, k)). -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  funext i
  obtain ⟨b, s, o, rfl⟩ : ∃ (b : Fin 4) (s : Fin 2048) (o : Fin 4096), i = ix3 b s o := ⟨i 0, i 1, i 2, eq_ix3 i⟩
  exact (Cert.ReferenceIdeal.RefSide.ref_at _ _ b s o).trans (Cert.KernelIdeal.Result.result_at m c b s o).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
